-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S1x1x4096 : Shape := ⟨3, ![1, 1, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x1x4096 : S_.BroadcastsInDim S1x1x4096 (![] : Fin 0 → Fin S1x1x4096.rank)
  reducesTo_S1x1x4096_S_d0_1_2 : S1x1x4096.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S1x1x4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x1x4096 .f32 := Host.absf main_arg2
  let main_cst_2 : FVec F S_ .f32 := constant S_ .f32 0x7F800000#32
  let main_v10 : FVec F S1x1x4096 .f32 := broadcastInDim S1x1x4096 ![] bcast_S_S1x1x4096 main_cst_2
  let main_v11 : IVec S1x1x4096 1 := cmpf .olt main_v9 main_v10
  let main_c_3 : IVec S_ 1 := constantI S_ 1 1#1
  let main_v12 : IVec S_ 1 := (fun x v => Host.reduce IntOp.andi x v reducesTo_S1x1x4096_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S1x1x4096 : Shape := ⟨3, ![1, 1, 4096]⟩
abbrev S4096 : Shape := ⟨1, ![4096]⟩
abbrev S_ : Shape := ⟨0, ![]⟩
abbrev S8192x4096 : Shape := ⟨2, ![8192, 4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 40
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S1x1x4096, .f32⟩
  | .hbm, ⟨3, _⟩ => ⟨S4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | .hbm, ⟨32, _⟩ => ⟨S4096x4096, .bf16⟩
  | .hbm, ⟨33, _⟩ => ⟨S4096x4096, .bf16⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S8192x4096, .f32⟩
  | .hbm, ⟨39, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v7 : Ref sig .tc := ⟨.hbm, 20, rfl⟩
abbrev main_cst_5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S4x2048x4096_S_d0_1_2 : S4x2048x4096.ReducesTo [0, 1, 2] S_
  h_S_ : 0 < S_.numel
  shapeCasts_S4x2048x4096_S8192x4096 : S4x2048x4096.ShapeCasts S8192x4096
  bcast_S_S8192x4096 : S_.BroadcastsInDim S8192x4096 (![] : Fin 0 → Fin S8192x4096.rank)
  bitsLt_bf16_f32 : FTy.bits .bf16 < FTy.bits .f32
  transposes_S4096x4096_S4096x4096_1_0 : S4096x4096.Transposes [1, 0] S4096x4096
  shapeCasts_S1x1x4096_S1x4096 : S1x1x4096.ShapeCasts S1x4096
  bcast_S_S1x4096 : S_.BroadcastsInDim S1x4096 (![] : Fin 0 → Fin S1x4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v17) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S1x1x4096 : Shape := ⟨3, ![1, 1, 4096]⟩
abbrev S4096 : Shape := ⟨1, ![4096]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S1x1x4096, .f32⟩
  | .hbm, ⟨3, _⟩ => ⟨S4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S1x1x4096, .f32⟩
  | .hbm, ⟨34, _⟩ => ⟨S4x2048x4096, .f32⟩
  | .hbm, ⟨35, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S4x2048x4096_S_d0_1_2 : S4x2048x4096.ReducesTo [0, 1, 2] S_
  h_S_ : 0 < S_.numel
  bcast_S_S4x2048x4096 : S_.BroadcastsInDim S4x2048x4096 (![] : Fin 0 → Fin S4x2048x4096.rank)
  bcast_S1x1x4096_S4x2048x4096_0_1_2 : S1x1x4096.BroadcastsInDim S4x2048x4096 (![0, 1, 2] : Fin 3 → Fin S4x2048x4096.rank)
  bcast_S4096_S1x1x4096_2 : S4096.BroadcastsInDim S1x1x4096 (![2] : Fin 1 → Fin S1x1x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The arithmetic the two programs share, on the extended reals.

  Both programs quantise an activation entry `x` with a scale `s` and a zero point `z`, contract the quantised row
  with a weight row, and undo the scales. One divides by the scale, `round (x / s + z) - z`; the other multiplies by
  the reciprocal, `round (x · (1 / s) + z) - z`. One multiplies the contraction by `s` and then by the channel
  scale `c`; the other multiplies it by the product `c · s`.

  For `s ≠ 0` the quotient `x / s` is `x · s⁻¹` and `1 / s` is `s⁻¹`, so the quantised entries are equal, and what
  remains is associativity and commutativity of the product — no finiteness is used. For `s = 0` the two quantised
  entries can differ (`0 · (1 / 0) = 0` but `0 / 0` is the bottom element), yet both results are then a product with
  zero plus the bias, and every extended real times zero is zero: both are the bias.

  Also here: a sum over 4096 consecutive positions is the sum of the sums over eight consecutive runs of 512; and the
  two results as whole arrays `[4, 2048, 4096]`, entry `(p, r, o)` contracting row `(p, r, ·)` of the activations with
  row `(o, ·)` of the weights, scaled by channel `o`'s scale and shifted by channel `o`'s bias.
-/
import Idealize.ShloMosaic.PureOps.Ideal
import Idealize.ShloMosaic.PureOps.Ideal.Laws
import Idealize.ShloMosaic.Lib.ValueIdx

noncomputable section

namespace Cert.QLinear

open Idealize.ShloMosaic Idealize.ShloMosaic.ValueIdx

/-- The word of `1.0` denotes the extended real `1`. -/
theorem one_f32 : Ideal.ofBits .f32 0x3F800000#32 = 1 := by
  simp [Ideal.ofBits, Ideal.ieee, -EReal.coe_mul]; norm_num

/-- For a divisor other than zero, multiplying by the reciprocal is dividing. -/
theorem mul_recip (x s : EReal) (hs : s ≠ 0) : x * Ideal.div 1 s = Ideal.div x s := by
  unfold Ideal.div
  rw [if_neg hs, if_neg hs, one_mul]

/-- An entry quantised by dividing by the scale, the zero point added before rounding and taken off after. -/
def quantDiv (rnd : EReal → EReal) (s z x : EReal) : EReal := rnd (Ideal.div x s + z) - z

/-- The same with the reciprocal of the scale as a factor. -/
def quantMul (rnd : EReal → EReal) (s z x : EReal) : EReal := rnd (x * Ideal.div 1 s + z) - z

/-- The two dequantised results are equal for every scale: for `s ≠ 0` term by term, for `s = 0` because both are
    the bias. -/
theorem dequant_eq {ι : Type} [Fintype ι] (rnd : EReal → EReal) (s z c b : EReal) (x w : ι → EReal) :
    (∑ d, quantMul rnd s z (x d) * w d) * (c * s) + b = ((∑ d, quantDiv rnd s z (x d) * w d) * s) * c + b := by
  by_cases hs : s = 0
  · subst hs
    rw [mul_zero, mul_zero, mul_zero, zero_mul]
  · simp only [quantMul, quantDiv, mul_recip _ _ hs]
    rw [mul_comm c s, mul_assoc]

/-- Position `d` of 4096 is position `kk` of run `r`, `d = r · 512 + kk`: the sum over all positions is the sum over
    the eight runs of the sums over each run. -/
theorem sum_runs {M : Type} [AddCommMonoid M] (f : ℕ → M) :
    ∑ r ∈ Finset.range 8, ∑ kk : Fin 512, f (r * 512 + kk.val) = ∑ d : Fin 4096, f d.val := by
  have e : ∑ d : Fin (8 * 512), f d.val = ∑ p : Fin 8 × Fin 512, f (finProdFinEquiv p).val :=
    (Equiv.sum_comp finProdFinEquiv (fun d : Fin (8 * 512) => f d.val)).symm
  rw [show (∑ d : Fin 4096, f d.val) = ∑ d : Fin (8 * 512), f d.val from rfl, e, Fintype.sum_prod_type,
    ← Fin.sum_univ_eq_sum_range (fun r => ∑ kk : Fin 512, f (r * 512 + kk.val)) 8]
  refine Finset.sum_congr rfl fun r _ => Finset.sum_congr rfl fun kk _ => ?_
  rw [finProdFinEquiv_apply_val, Nat.add_comm, Nat.mul_comm]

/-- The result array when the scale divides: entry `(p, r, o)` is `((∑ d, q (x p r d) · w o d) · s) · c o + b o`. -/
def outDiv (rnd : EReal → EReal) (s z : EReal) (x : (⟨3, ![4, 2048, 4096]⟩ : Shape).Idx → EReal)
    (w : (⟨2, ![4096, 4096]⟩ : Shape).Idx → EReal) (c : (⟨3, ![1, 1, 4096]⟩ : Shape).Idx → EReal)
    (b : (⟨1, ![4096]⟩ : Shape).Idx → EReal) : (⟨3, ![4, 2048, 4096]⟩ : Shape).Idx → EReal := fun i =>
  ((∑ d : Fin 4096, quantDiv rnd s z (x (ix3 (i 0) (i 1) d)) * w (ix2 (i 2) d)) * s) * c (ix3 0 0 (i 2)) + b (ix1 (i 2))

/-- The result array when the reciprocal of the scale multiplies and the scale is folded into the channel scales:
    entry `(p, r, o)` is `(∑ d, q' (x p r d) · w o d) · (c o · s) + b o`. -/
def outMul (rnd : EReal → EReal) (s z : EReal) (x : (⟨3, ![4, 2048, 4096]⟩ : Shape).Idx → EReal)
    (w : (⟨2, ![4096, 4096]⟩ : Shape).Idx → EReal) (c : (⟨3, ![1, 1, 4096]⟩ : Shape).Idx → EReal)
    (b : (⟨1, ![4096]⟩ : Shape).Idx → EReal) : (⟨3, ![4, 2048, 4096]⟩ : Shape).Idx → EReal := fun i =>
  (∑ d : Fin 4096, quantMul rnd s z (x (ix3 (i 0) (i 1) d)) * w (ix2 (i 2) d)) * (c (ix3 0 0 (i 2)) * s) + b (ix1 (i 2))

/-- They are one array. -/
theorem outMul_eq_outDiv (rnd : EReal → EReal) (s z : EReal) (x : (⟨3, ![4, 2048, 4096]⟩ : Shape).Idx → EReal)
    (w : (⟨2, ![4096, 4096]⟩ : Shape).Idx → EReal) (c : (⟨3, ![1, 1, 4096]⟩ : Shape).Idx → EReal)
    (b : (⟨1, ![4096]⟩ : Shape).Idx → EReal) : outMul rnd s z x w c b = outDiv rnd s z x w c b :=
  funext fun i => dequant_eq rnd s z (c (ix3 0 0 (i 2))) (b (ix1 (i 2))) (fun d => x (ix3 (i 0) (i 1) d)) (fun d => w (ix2 (i 2) d))

end Cert.QLinear

end
-- ==== Proof.RefValue.lean ====
/-
  The reference's result array, entry by entry.

  Entry `(p, r, o)` of the reference is `((∑ d, (round (x p r d / s + z) - z) · w o d) · s) · c o + b o`, where the
  scale `s` and the zero point `z` are two numbers computed from the whole activation array (its maximum and
  minimum, a quotient by 255, a rounding, a clamp to [-128, 127]). Every broadcast of `s`, `z`, the channel scales and
  the bias reads its one source entry, and the product of the quantised activations with the weights contracts the
  last axis of each.
-/
import proofs.«117008_j56882546868863_2_alg».proof.Proof.Gen.ReferenceIdeal.Read
import proofs.«117008_j56882546868863_2_alg».proof.Proof.Spec

noncomputable section

namespace Cert.ReferenceIdeal.RefValue

open Cert.ReferenceIdeal Cert.ReferenceIdeal.Read Idealize.ShloMosaic Idealize.ShloMosaic.ValueIdx Cert.QLinear

/-- The reference's last stage is the dividing form of the result array, at the reference's own scale and zero
    point. -/
theorem ref_is_outDiv (x0 : (⟨S4x2048x4096, .f32⟩ : BufTy).Contents (Elt Ideal)) (x1 : (⟨S4096x4096, .f32⟩ : BufTy).Contents (Elt Ideal))
    (x2 : (⟨S1x1x4096, .f32⟩ : BufTy).Contents (Elt Ideal)) (x3 : (⟨S4096, .f32⟩ : BufTy).Contents (Elt Ideal)) :
    val_main_v22 (F := Ideal) x0 x1 x2 x3
      = outDiv (FloatOps.hostUnary (F := Ideal) (φ := .f32) .roundeven) (val_main_v3 (F := Ideal) x0 ix0) (val_main_v7 (F := Ideal) x0 ix0)
          x0 x1 x2 x3 := by
  funext i
  obtain ⟨p, r, o, rfl⟩ : ∃ p r o, i = ix3 p r o := ⟨i 0, i 1, i 2, eq_ix3 i⟩
  rw [val_main_v22_apply, val_main_v19_apply, val_main_v17_apply, val_main_v15_apply, val_main_v16_apply, val_main_v18_apply,
    val_main_v21_apply, val_main_v20_apply]
  simp only [val_main_v14_apply, val_main_v12_apply, val_main_v11_apply, val_main_v9_apply, val_main_v8_apply,
    val_main_v10_apply, val_main_v13_apply, Ideal.addf_def, Ideal.subf_def, Ideal.mulf_def, Ideal.hostDivf_def]
  -- the contraction reads row `(p, r, ·)` of the activations and row `(o, ·)` of the weights
  have hl : ∀ k : Fin 4096, lidx_main_v15 (ix3 p r o) k = ix3 p r k := fun k => funext fun a => by
    match a with
    | ⟨0, _⟩ => rfl
    | ⟨1, _⟩ => rfl
    | ⟨2, _⟩ => rfl
  have hr : ∀ k : Fin 4096, ridx_main_v15 (ix3 p r o) k = ix2 o k := fun k => funext fun a => by
    match a with
    | ⟨0, _⟩ => rfl
    | ⟨1, _⟩ => rfl
  -- the channel scale and the bias are read at channel `o`
  have hc : idx_main_v18 (ix3 p r o) = ix3 (0 : Fin 1) (0 : Fin 1) o := funext fun a => by
    match a with
    | ⟨0, _⟩ => rfl
    | ⟨1, _⟩ => rfl
    | ⟨2, _⟩ => rfl
  have hb : idx_main_v20 (idx_main_v21 (ix3 p r o)) = ix1 o := funext fun a => by
    match a with
    | ⟨0, _⟩ => rfl
  simp only [hl, hr, hc, hb]
  rfl

end Cert.ReferenceIdeal.RefValue

end
-- ==== Proof.Pieces.lean ====
/-
  What one run of the kernel body leaves behind, as values.

  The body keeps a [1024, 1024] accumulator. At the first step of a contraction it stores zeros and then adds the
  product of the step's two blocks to what it reads back; at every later step it adds the product to what the step
  before left; at the last step it also writes the output block, the accumulator times the row of scales plus the
  row of biases. Each store covers its whole buffer and each load reads a whole buffer, so what a buffer holds after
  the body is the last store's value, computed from the buffers' contents.
-/
import proofs.«117008_j56882546868863_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- A middle step leaves in the accumulator what it found there plus the product of the step's two blocks. -/
theorem acc_B (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x512 .bf16) (x1 : Vec F S512x1024 .bf16) (x2 : Vec F S1x1024 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 xs0 x0 x1 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg8.read_unread, harg3.read_unread, harg4.read_unread, View.ld_unit_zero (S := S1024x1024) hz, View.ld_unit_zero (S := S1024x512) hz, View.ld_unit_zero (S := S512x1024) hz, View.ld_unit_zero (S := S1x1024) hz]

/-- The first step leaves zeros plus the product of its two blocks: the zeros it stored are what it reads back. -/
theorem acc_A (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x512 .bf16) (x1 : Vec F S512x1024 .bf16) (x2 : Vec F S1x1024 .f32) (x3 : Vec F S1x1024 .f32) :
    sout0_A_0 c i arg3 harg3 arg4 harg4 arg5 harg5 arg6 harg6 arg7 harg7 arg8 harg8 hc0 hc1 x0 x1 x2 x3 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz, View.ld_unit_zero (S := S1024x512) hz, View.ld_unit_zero (S := S512x1024) hz, View.ld_unit_zero (S := S1x1024) hz]

/-- The last step leaves the same sum in the accumulator as a middle step does, -/
theorem acc_C (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .bf16) (x1 : Vec F S512x1024 .bf16) (x2 : Vec F S1x1024 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 xs0 x0 x1 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg8.read_unread, harg3.read_unread, harg4.read_unread, View.ld_unit_zero (S := S1024x1024) hz, View.ld_unit_zero (S := S1024x512) hz, View.ld_unit_zero (S := S512x1024) hz, View.ld_unit_zero (S := S1x1024) hz]

/-- and writes the output block from it: that sum times the scales' row plus the biases' row. -/
theorem out_C (c : Dev nD) (i : grid0.Coords) (arg3 : Memref sig .tc .vmem S1024x512 .bf16) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .bf16) (x1 : Vec F S512x1024 .bf16) (x2 : Vec F S1x1024 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 xs0 x0 x1) x2 x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S1024x1024) _ hz]
  simp only [View.readAt_eq_ld, harg8.read_unread, harg3.read_unread, harg4.read_unread, harg5.read_unread, harg6.read_unread, View.ld_unit_zero (S := S1024x1024) hz, View.ld_unit_zero (S := S1024x512) hz, View.ld_unit_zero (S := S512x1024) hz, View.ld_unit_zero (S := S1x1024) hz]

end Cert.KernelIdeal.Pieces

end
-- ==== Proof.Payload.lean ====
/-
  The body's three stored values, entry by entry, on the extended reals.

  The reset value is zero everywhere. The accumulate value at `(p, q)` is what the accumulator held there plus the
  inner product of row `p` of the left block with column `q` of the right block, 512 terms. The output value at
  `(p, q)` is the accumulator there times entry `q` of the scales' row plus entry `q` of the biases' row.
-/
import proofs.«117008_j56882546868863_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen Idealize.ShloMosaic Idealize.ShloMosaic.ValueIdx

/-- The product's output row comes from the left block's row, -/
theorem lhs_row (j : S1024x1024.Idx) (k : dot_S1024x512_S512x1024_S1024x1024_1_0_0_1_n_n.contr.Idx) :
    (dot_S1024x512_S512x1024_S1024x1024_1_0_0_1_n_n.lhsIdx j k 0).val = (j 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

/-- its output column from the right block's column, -/
theorem rhs_col (j : S1024x1024.Idx) (k : dot_S1024x512_S512x1024_S1024x1024_1_0_0_1_n_n.contr.Idx) :
    (dot_S1024x512_S512x1024_S1024x1024_1_0_0_1_n_n.rhsIdx j k 1).val = (j 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- and the summed position is the left block's column and the right block's row. -/
theorem lhs_col (j : S1024x1024.Idx) (k : dot_S1024x512_S512x1024_S1024x1024_1_0_0_1_n_n.contr.Idx) :
    (dot_S1024x512_S512x1024_S1024x1024_1_0_0_1_n_n.lhsIdx j k 1).val = (k ⟨0, by decide⟩).val :=
  dot_S1024x512_S512x1024_S1024x1024_1_0_0_1_n_n.lhsIdx_val_of_single rfl j k

theorem rhs_row (j : S1024x1024.Idx) (k : dot_S1024x512_S512x1024_S1024x1024_1_0_0_1_n_n.contr.Idx) :
    (dot_S1024x512_S512x1024_S1024x1024_1_0_0_1_n_n.rhsIdx j k 0).val = (k ⟨0, by decide⟩).val :=
  dot_S1024x512_S512x1024_S1024x1024_1_0_0_1_n_n.rhsIdx_val_of_single rfl j k

/-- The product of two blocks into zeros, at `(p, q)`: the inner product of row `p` and column `q`. -/
theorem product_apply (A : FVec Ideal S1024x512 .bf16) (B : FVec Ideal S512x1024 .bf16) (p q : Fin 1024) :
    FloatOps.matmul dot_S1024x512_S512x1024_S1024x1024_1_0_0_1_n_n none A B (constant (F := Ideal) S1024x1024 .f32 0x00000000#32) (ix2 p q)
      = ∑ kk : Fin 512, A (ix2 p kk) * B (ix2 kk q) := by
  rw [Ideal.matmul_constant_zero_apply, ← Equiv.sum_comp (contrEquiv1 dot_S1024x512_S512x1024_S1024x1024_1_0_0_1_n_n 512 rfl rfl).symm]
  refine Finset.sum_congr rfl fun kk _ => ?_
  have hk := contrEquiv1_symm_val dot_S1024x512_S512x1024_S1024x1024_1_0_0_1_n_n 512 rfl rfl kk
  have el : dot_S1024x512_S512x1024_S1024x1024_1_0_0_1_n_n.lhsIdx (ix2 p q) ((contrEquiv1 dot_S1024x512_S512x1024_S1024x1024_1_0_0_1_n_n 512 rfl rfl).symm kk) = ix2 p kk :=
    funext fun a => Fin.ext (by
      match a with
      | ⟨0, _⟩ => exact lhs_row _ _
      | ⟨1, _⟩ => exact (lhs_col _ _).trans hk)
  have er : dot_S1024x512_S512x1024_S1024x1024_1_0_0_1_n_n.rhsIdx (ix2 p q) ((contrEquiv1 dot_S1024x512_S512x1024_S1024x1024_1_0_0_1_n_n 512 rfl rfl).symm kk) = ix2 kk q :=
    funext fun a => Fin.ext (by
      match a with
      | ⟨0, _⟩ => exact (rhs_row _ _).trans hk
      | ⟨1, _⟩ => exact rhs_col _ _)
  rw [el, er]

/-- The reset value is zero. -/
theorem reset_apply (y : S1024x1024.Idx) : k0_pay1 (F := Ideal) y = 0 := by
  unfold k0_pay1
  rw [shapeCast_self]
  exact Ideal.ofBits_zero_f32

/-- The accumulate value. -/
theorem accumulate_apply (acc : Vec Ideal S1024x1024 .f32) (A : Vec Ideal S1024x512 .bf16) (B : Vec Ideal S512x1024 .bf16)
    (p q : Fin 1024) :
    k0_pay2 acc A B (ix2 p q) = acc (ix2 p q) + ∑ kk : Fin 512, A (ix2 p kk) * B (ix2 kk q) := by
  unfold k0_pay2
  simp only [shapeCast_self]
  exact congrArg (acc (ix2 p q) + ·) (product_apply A B p q)

/-- The output value. -/
theorem output_apply (acc : Vec Ideal S1024x1024 .f32) (sc bi : Vec Ideal S1x1024 .f32) (p q : Fin 1024) :
    k0_pay3 acc sc bi (ix2 p q) = acc (ix2 p q) * sc (ix2 (0 : Fin 1) q) + bi (ix2 (0 : Fin 1) q) := by
  unfold k0_pay3
  simp only [shapeCast_self]
  show acc (ix2 p q) * broadcastTo S1024x1024 sc broadcasts_S1x1024_S1024x1024 (ix2 p q)
    + broadcastTo S1024x1024 bi broadcasts_S1x1024_S1024x1024 (ix2 p q) = _
  rw [broadcastTo_1b_ab_apply, broadcastTo_1b_ab_apply]

end Cert.KernelIdeal.Payload

end
-- ==== Proof.Contract.lean ====
/-
  One contraction of 4096 positions as eight steps of 512.

  Point `n` of the grid works on rows `(n / 32) · 1024 + p` of the left matrix, positions `(n % 8) · 512 + kk` of the
  contraction and columns `((n / 8) % 4) · 1024 + q` of the right matrix. The eight points `8 · (t / 8) + s`, `s < 8`,
  share their rows and columns with `t` and walk through the positions run by run, so their inner products add up to
  the full inner product of row and column.
-/
import proofs.«117008_j56882546868863_2_alg».proof.Proof.Spec

noncomputable section

namespace Cert.QLinear

open Idealize.ShloMosaic Idealize.ShloMosaic.ValueIdx

/-- Point `n`'s rows of the left matrix, -/
abbrev blkRow (n : ℕ) (p : Fin 1024) : Fin 8192 := ⟨n / 32 % 8 * 1024 + p.val, by have := p.isLt; omega⟩
/-- its positions of the contraction, -/
abbrev blkMid (n : ℕ) (kk : Fin 512) : Fin 4096 := ⟨n % 8 * 512 + kk.val, by have := kk.isLt; omega⟩
/-- and its columns of the right matrix. -/
abbrev blkCol (n : ℕ) (q : Fin 1024) : Fin 4096 := ⟨n / 8 % 4 * 1024 + q.val, by have := q.isLt; omega⟩

/-- The inner product point `n` contributes at `(p, q)` of its block: its rows against its columns over its positions. -/
def addend (A : (⟨2, ![8192, 4096]⟩ : Shape).Idx → EReal) (B : (⟨2, ![4096, 4096]⟩ : Shape).Idx → EReal) (n : ℕ)
    (y : (⟨2, ![1024, 1024]⟩ : Shape).Idx) : EReal :=
  ∑ kk : Fin 512, A (ix2 (blkRow n (y 0)) (blkMid n kk)) * B (ix2 (blkMid n kk) (blkCol n (y 1)))

/-- The eight steps of `t`'s contraction contribute, together, the full inner product of `t`'s row and column. -/
theorem runs_contract (A : (⟨2, ![8192, 4096]⟩ : Shape).Idx → EReal) (B : (⟨2, ![4096, 4096]⟩ : Shape).Idx → EReal) (t : ℕ)
    (p q : Fin 1024) :
    ∑ s ∈ Finset.range 8, addend A B (8 * (t / 8) + s) (ix2 p q)
      = ∑ d : Fin 4096, A (ix2 (blkRow t p) d) * B (ix2 d (blkCol t q)) := by
  have hR : ∑ d : Fin 4096, A (ix2 (blkRow t p) d) * B (ix2 d (blkCol t q))
      = ∑ d : Fin 4096, (fun d : ℕ => if h : d < 4096 then A (ix2 (blkRow t p) ⟨d, h⟩) * B (ix2 ⟨d, h⟩ (blkCol t q)) else 0) d.val :=
    Finset.sum_congr rfl fun d _ => by
      show _ = if h : d.val < 4096 then A (ix2 (blkRow t p) ⟨d.val, h⟩) * B (ix2 ⟨d.val, h⟩ (blkCol t q)) else 0
      rw [dif_pos d.isLt]
  refine Eq.trans ?_ ((sum_runs (fun d : ℕ =>
    if h : d < 4096 then A (ix2 (blkRow t p) ⟨d, h⟩) * B (ix2 ⟨d, h⟩ (blkCol t q)) else 0)).trans hR.symm)
  refine Finset.sum_congr rfl fun s hs => ?_
  have hs8 : s < 8 := Finset.mem_range.mp hs
  refine Finset.sum_congr rfl fun kk _ => ?_
  have hk : kk.val < 512 := kk.isLt
  have hlt : s * 512 + kk.val < 4096 := by omega
  have hp : p.val < 1024 := p.isLt
  have hq : q.val < 1024 := q.isLt
  show A (ix2 (blkRow (8 * (t / 8) + s) p) (blkMid (8 * (t / 8) + s) kk)) * B (ix2 (blkMid (8 * (t / 8) + s) kk) (blkCol (8 * (t / 8) + s) q))
    = if h : s * 512 + kk.val < 4096 then A (ix2 (blkRow t p) ⟨s * 512 + kk.val, h⟩) * B (ix2 ⟨s * 512 + kk.val, h⟩ (blkCol t q)) else 0
  rw [dif_pos hlt]
  have e1 : blkRow (8 * (t / 8) + s) p = blkRow t p := Fin.ext (by
    show (8 * (t / 8) + s) / 32 % 8 * 1024 + p.val = t / 32 % 8 * 1024 + p.val; omega)
  have e2 : blkMid (8 * (t / 8) + s) kk = ⟨s * 512 + kk.val, hlt⟩ := Fin.ext (by
    show (8 * (t / 8) + s) % 8 * 512 + kk.val = s * 512 + kk.val; omega)
  have e3 : blkCol (8 * (t / 8) + s) q = blkCol t q := Fin.ext (by
    show (8 * (t / 8) + s) / 8 % 4 * 1024 + q.val = t / 8 % 4 * 1024 + q.val; omega)
  rw [e1, e2, e3]

/-- The region's result as one array `[8192, 4096]`: entry `(r, n)` is the full inner product of row `r` of the left
    matrix with column `n` of the right one, times entry `n` of the scales' row, plus entry `n` of the biases' row. -/
def product (A : (⟨2, ![8192, 4096]⟩ : Shape).Idx → EReal) (B : (⟨2, ![4096, 4096]⟩ : Shape).Idx → EReal)
    (C D : (⟨2, ![1, 4096]⟩ : Shape).Idx → EReal) : (⟨2, ![8192, 4096]⟩ : Shape).Idx → EReal := fun i =>
  (∑ d : Fin 4096, A (ix2 (i 0) d) * B (ix2 d (i 1))) * C (ix2 (0 : Fin 1) (i 1)) + D (ix2 (0 : Fin 1) (i 1))

end Cert.QLinear

end
-- ==== Proof.Accum.lean ====
/-
  The accumulator over one contraction, as a sum.

  The grid has 256 points; point `n` works on block row `n / 32` of the activations, block column `(n / 8) % 4` of the
  weights, and step `n % 8` of the contraction. The accumulator is reset at the steps `n % 8 = 0` and at every other
  step adds the product of that step's two blocks to what the step before left. So after point `n` it holds, at
  `(p, q)`, zero plus the sum over the steps `0 … n % 8` of the 512-term inner products of the quantised activations'
  row `(n / 32) · 1024 + p` with the transposed weights' column `((n / 8) % 4) · 1024 + q` over the step's 512
  positions. At the last step the output block is that sum times the scales' entry plus the biases' entry of the
  column.
-/
import proofs.«117008_j56882546868863_2_alg».proof.Proof.Gen.KernelIdeal.Frame
import proofs.«117008_j56882546868863_2_alg».proof.Proof.Pieces
import proofs.«117008_j56882546868863_2_alg».proof.Proof.Payload
import proofs.«117008_j56882546868863_2_alg».proof.Proof.Contract
import Idealize.ShloMosaic.Lib.Pipeline.Value

set_option maxRecDepth 16384

noncomputable section

namespace Cert.KernelIdeal.Accum

open Cert.KernelIdeal Cert.KernelIdeal.Gen Idealize.ShloMosaic Idealize.ShloMosaic.TcCoe Idealize.SL.Sem
open Idealize.ShloMosaic.ValueIdx Idealize.ShloMosaic.Pipeline Cert.QLinear

variable (m : (ℓ : Loc nD τ sig) → Buf (Elt Ideal) ℓ)

/-- Where each window's block sits at each point, decided over the grid. -/
theorem index_facts : ∀ t : Fin cfg0.N,
    win0_0.index t (0 : Fin 2) = t.val / 32 % 8 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = 0 ∧ win0_3.index t (1 : Fin 2) = t.val / 8 % 4
    ∧ win0_4.index t (0 : Fin 2) = t.val / 32 % 8 ∧ win0_4.index t (1 : Fin 2) = t.val / 8 % 4 :=
  (by decide +kernel : ∀ t : Fin grid0.N, _)

/-- The left block at a point is the point's rows and positions of the quantised activations. -/
theorem left_read (c : Dev nD) (t : Fin cfg0.N) (p : Fin 1024) (kk : Fin 512) :
    (iblk m c 0 t : Vec Ideal S1024x512 .bf16) (ix2 p kk) = V m c main_v17 (ix2 (blkRow t.val p) (blkMid t.val kk)) := by
  obtain ⟨e0, e1, -⟩ := index_facts t
  unfold iblk
  rw [View.read_apply]
  show V m c main_v17 (((cfg0.win 0).blk t).view.emb (ix2 p kk)) = V m c main_v17 (ix2 (blkRow t.val p) (blkMid t.val kk))
  refine congrArg (V m c main_v17) (funext fun a => Fin.ext ?_)
  match a with
  | ⟨0, _⟩ => show win0_0.index t (0 : Fin 2) * 1024 + 1 * p.val = t.val / 32 % 8 * 1024 + p.val; rw [e0]; omega
  | ⟨1, _⟩ => show win0_0.index t (1 : Fin 2) * 512 + 1 * kk.val = t.val % 8 * 512 + kk.val; rw [e1]; omega

/-- The right block at a point is the point's positions and columns of the transposed weights. -/
theorem right_read (c : Dev nD) (t : Fin cfg0.N) (kk : Fin 512) (q : Fin 1024) :
    (iblk m c 1 t : Vec Ideal S512x1024 .bf16) (ix2 kk q) = V m c main_v19 (ix2 (blkMid t.val kk) (blkCol t.val q)) := by
  obtain ⟨-, -, e0, e1, -⟩ := index_facts t
  unfold iblk
  rw [View.read_apply]
  show V m c main_v19 (((cfg0.win 1).blk t).view.emb (ix2 kk q)) = V m c main_v19 (ix2 (blkMid t.val kk) (blkCol t.val q))
  refine congrArg (V m c main_v19) (funext fun a => Fin.ext ?_)
  match a with
  | ⟨0, _⟩ => show win0_1.index t (0 : Fin 2) * 512 + 1 * kk.val = t.val % 8 * 512 + kk.val; rw [e0]; omega
  | ⟨1, _⟩ => show win0_1.index t (1 : Fin 2) * 1024 + 1 * q.val = t.val / 8 % 4 * 1024 + q.val; rw [e1]; omega

/-- The scales' block at a point is the point's columns of the scaled channel scales. -/
theorem scales_read (c : Dev nD) (t : Fin cfg0.N) (u : Fin 1) (q : Fin 1024) :
    (iblk m c 2 t : Vec Ideal S1x1024 .f32) (ix2 u q) = V m c main_v22 (ix2 u (blkCol t.val q)) := by
  obtain ⟨-, -, -, -, e0, e1, -⟩ := index_facts t
  unfold iblk
  rw [View.read_apply]
  show V m c main_v22 (((cfg0.win 2).blk t).view.emb (ix2 u q)) = V m c main_v22 (ix2 u (blkCol t.val q))
  refine congrArg (V m c main_v22) (funext fun a => Fin.ext ?_)
  match a with
  | ⟨0, _⟩ => show win0_2.index t (0 : Fin 2) * 1 + 1 * u.val = u.val; rw [e0]; omega
  | ⟨1, _⟩ => show win0_2.index t (1 : Fin 2) * 1024 + 1 * q.val = t.val / 8 % 4 * 1024 + q.val; rw [e1]; omega

/-- The biases' block at a point is the point's columns of the biases' row. -/
theorem biases_read (c : Dev nD) (t : Fin cfg0.N) (u : Fin 1) (q : Fin 1024) :
    (iblk m c 3 t : Vec Ideal S1x1024 .f32) (ix2 u q) = V m c main_v23 (ix2 u (blkCol t.val q)) := by
  obtain ⟨-, -, -, -, -, -, e0, e1, -⟩ := index_facts t
  unfold iblk
  rw [View.read_apply]
  show V m c main_v23 (((cfg0.win 3).blk t).view.emb (ix2 u q)) = V m c main_v23 (ix2 u (blkCol t.val q))
  refine congrArg (V m c main_v23) (funext fun a => Fin.ext ?_)
  match a with
  | ⟨0, _⟩ => show win0_3.index t (0 : Fin 2) * 1 + 1 * u.val = u.val; rw [e0]; omega
  | ⟨1, _⟩ => show win0_3.index t (1 : Fin 2) * 1024 + 1 * q.val = t.val / 8 % 4 * 1024 + q.val; rw [e1]; omega

/-- What the first step of a contraction leaves in the accumulator, -/
abbrev firstVal (c : Dev nD) (n : ℕ) (h : n < cfg0.N) : Vec Ideal S1024x1024 .f32 :=
  k0_pay2 (k0_pay1 (F := Ideal)) (iblk m c 0 ⟨n, h⟩) (iblk m c 1 ⟨n, h⟩)

/-- and what a later step makes of what it finds there. -/
abbrev stepVal (c : Dev nD) (n : ℕ) (h : n < cfg0.N) (acc : Vec Ideal S1024x1024 .f32) : Vec Ideal S1024x1024 .f32 :=
  k0_pay2 acc (iblk m c 0 ⟨n, h⟩) (iblk m c 1 ⟨n, h⟩)

/-- At a first step the accumulator is zeros plus the product of the step's blocks. -/
theorem first_at (c : Dev nD) (t : Fin cfg0.N) (h0 : t.val % 8 = 0) :
    (outsAt0 m c t.val t.isLt).2 = k0_pay2 (k0_pay1 (F := Ideal)) (iblk m c 0 t) (iblk m c 1 t) := by
  have h1 : ¬t.val % 8 = 7 := by omega
  have e := Pieces.acc_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun hh => h1 ((hcond0_1 t).mp hh)) (iblk m c 0 t) (iblk m c 1 t) (iblk m c 2 t) (iblk m c 3 t)
  rw [outsAt0_A m c t h0 h1]
  dsimp only
  exact e

/-- At a later step it is what the point before left plus the product of the step's blocks. -/
theorem step_at (c : Dev nD) (t : Fin cfg0.N) (h0 : ¬t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 8 = 7
  · have e := Pieces.acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (iblk m c 0 t) (iblk m c 1 t) (iblk m c 2 t) (iblk m c 3 t)
      (outsAt0 m c (t.val - 1) (Nat.lt_of_le_of_lt (Nat.sub_le _ _) t.isLt)).2
    rw [outsAt0_C m c t h0 h1]
    dsimp only
    exact e
  · have e := Pieces.acc_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) (fun hh => h1 ((hcond0_1 t).mp hh)) (iblk m c 0 t) (iblk m c 1 t) (iblk m c 2 t) (iblk m c 3 t)
      (outsAt0 m c (t.val - 1) (Nat.lt_of_le_of_lt (Nat.sub_le _ _) t.isLt)).2
    rw [outsAt0_B m c t h0 h1]
    dsimp only
    exact e

/-- At the last step the output block is the accumulator's new contents times the scales' row plus the biases' row. -/
theorem last_at (c : Dev nD) (t : Fin cfg0.N) (h7 : t.val % 8 = 7) :
    (outsAt0 m c t.val t.isLt).1 = k0_pay3 (outsAt0 m c t.val t.isLt).2 (iblk m c 2 t) (iblk m c 3 t) := by
  have h0 : ¬t.val % 8 = 0 := by omega
  have e1 := Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h7) (iblk m c 0 t) (iblk m c 1 t) (iblk m c 2 t) (iblk m c 3 t)
      (outsAt0 m c (t.val - 1) (Nat.lt_of_le_of_lt (Nat.sub_le _ _) t.isLt)).2
  have e2 := Pieces.acc_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h7) (iblk m c 0 t) (iblk m c 1 t) (iblk m c 2 t) (iblk m c 3 t)
      (outsAt0 m c (t.val - 1) (Nat.lt_of_le_of_lt (Nat.sub_le _ _) t.isLt)).2
  rw [outsAt0_C m c t h0 h7]
  dsimp only
  rw [e1, e2]

/-- The inner product of a row of one block with a column of another, both read out of the two matrices at a point's
    rows, positions and columns, is the point's addend. -/
theorem product_read (X0 : Vec Ideal S1024x512 .bf16) (X1 : Vec Ideal S512x1024 .bf16)
    (A : S8192x4096.Idx → EReal) (B : S4096x4096.Idx → EReal) (n : ℕ) (p q : Fin 1024)
    (hl : ∀ kk : Fin 512, X0 (ix2 p kk) = A (ix2 (blkRow n p) (blkMid n kk)))
    (hr : ∀ kk : Fin 512, X1 (ix2 kk q) = B (ix2 (blkMid n kk) (blkCol n q))) :
    (∑ kk : Fin 512, X0 (ix2 p kk) * X1 (ix2 kk q)) = addend A B n (ix2 p q) :=
  Finset.sum_congr rfl fun kk _ => by rw [hl kk, hr kk]

/-- After point `t` the accumulator holds zero plus the sum of the addends of the steps of its contraction so far. -/
theorem acc_apply (c : Dev nD) (t : ℕ) (ht : t < cfg0.N) (y : S1024x1024.Idx) :
    (outsAt0 m c t ht).2 y = 0 + ∑ s ∈ Finset.range (t % 8 + 1), addend (V m c main_v17) (V m c main_v19) (8 * (t / 8) + s) y := by
  have h' : 8 * (t / 8) + t % 8 < cfg0.N := by omega
  rw [eq_accAt_of_mod (fun n h => (outsAt0 m c n h).2) 8 (firstVal m c) (stepVal m c)
    (fun n h h0 => first_at m c ⟨n, h⟩ h0) (fun n h h0 => step_at m c ⟨n + 1, h⟩ h0) (by norm_num) t ht h']
  refine accAt_add_apply (firstVal m c) (stepVal m c) (fun _ => 0) (addend (V m c main_v17) (V m c main_v19)) (8 * (t / 8)) 7 ?_ ?_ (t % 8) (by omega) h' y
  · intro h i
    obtain ⟨p, q, rfl⟩ : ∃ p q, i = ix2 p q := ⟨i 0, i 1, eq_ix2 i⟩
    refine (Payload.accumulate_apply (k0_pay1 (F := Ideal)) (iblk m c 0 ⟨8 * (t / 8), h⟩) (iblk m c 1 ⟨8 * (t / 8), h⟩) p q).trans ?_
    rw [Payload.reset_apply]
    exact congrArg (0 + ·) (product_read (iblk m c 0 ⟨8 * (t / 8), h⟩) (iblk m c 1 ⟨8 * (t / 8), h⟩) (V m c main_v17) (V m c main_v19)
      (8 * (t / 8)) p q (fun kk => left_read m c ⟨8 * (t / 8), h⟩ p kk) (fun kk => right_read m c ⟨8 * (t / 8), h⟩ kk q))
  · intro n h acc i _ _
    obtain ⟨p, q, rfl⟩ : ∃ p q, i = ix2 p q := ⟨i 0, i 1, eq_ix2 i⟩
    refine (Payload.accumulate_apply acc (iblk m c 0 ⟨n, h⟩) (iblk m c 1 ⟨n, h⟩) p q).trans ?_
    exact congrArg (acc (ix2 p q) + ·) (product_read (iblk m c 0 ⟨n, h⟩) (iblk m c 1 ⟨n, h⟩) (V m c main_v17) (V m c main_v19)
      n p q (fun kk => left_read m c ⟨n, h⟩ p kk) (fun kk => right_read m c ⟨n, h⟩ kk q))

/-- At the last step of a contraction the output block at `(p, q)` is the accumulator there times the scaled channel
    scale of the column plus the bias of the column. -/
theorem out_apply (c : Dev nD) (t : Fin cfg0.N) (h7 : t.val % 8 = 7) (p q : Fin 1024) :
    (outsAt0 m c t.val t.isLt).1 (ix2 p q)
      = (outsAt0 m c t.val t.isLt).2 (ix2 p q) * V m c main_v22 (ix2 (0 : Fin 1) (blkCol t.val q))
        + V m c main_v23 (ix2 (0 : Fin 1) (blkCol t.val q)) := by
  rw [last_at m c t h7]
  refine (Payload.output_apply (outsAt0 m c t.val t.isLt).2 (iblk m c 2 t) (iblk m c 3 t) p q).trans ?_
  rw [scales_read m c t 0 q, biases_read m c t 0 q]

end Cert.KernelIdeal.Accum

end
-- ==== Proof.Blocks.lean ====
/-
  From blocks to the whole array.

  The output block is written back only at the last step of each contraction, the points `t` with `t % 8 = 7`; there
  it is block `(t / 32, (t / 8) % 4)` of one array: the full inner products of the quantised activations' rows with the
  transposed weights' columns, times the scaled channel scales, plus the biases. Each of the 8 × 4 blocks of the
  [8192, 4096] array is the block of exactly such a point, so after the run the array is that array.
-/
import proofs.«117008_j56882546868863_2_alg».proof.Proof.Accum

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.Pipeline Cert.QLinear Cert.KernelIdeal.Accum

variable (m : (ℓ : Loc nD τ sig) → Buf (Elt Ideal) ℓ)

/-- The region's result array, of the four arrays the region finds. -/
abbrev regionOut (c : Dev nD) : S8192x4096.Idx → EReal :=
  product (V m c main_v17) (V m c main_v19) (V m c main_v22) (V m c main_v23)

/-- At a point that ends a contraction, entry `(p, q)` of the output block is the result array's entry at the
    point's row `p` and column `q`: the eight steps' inner products are the full one. -/
theorem block_entry (c : Dev nD) (t : Fin cfg0.N) (h7 : t.val % 8 = 7) (p q : Fin 1024) :
    (outsAt0 m c t.val t.isLt).1 (ix2 p q) = regionOut m c (ix2 (blkRow t.val p) (blkCol t.val q)) := by
  rw [out_apply m c t h7 p q, acc_apply m c t.val t.isLt (ix2 p q), h7, zero_add]
  show (∑ s ∈ Finset.range 8, addend (V m c main_v17) (V m c main_v19) (8 * (t.val / 8) + s) (ix2 p q)) * _ + _ = _
  rw [runs_contract]
  rfl

/-- What a point that ends a contraction writes back is its block of the result array. -/
theorem flushed_eq (c : Dev nD) (t : Fin cfg0.N) (hf : (cfg0.win 4).flush t = true) :
    (dats m 0 c).flushed 4 t = ((cfg0.win 4).blk t).view.read (Elt Ideal) (regionOut m c) := by
  have h7 : t.val % 8 = 7 := (flush0_4 t).mp hf
  obtain ⟨-, -, -, -, -, -, -, -, e0, e1⟩ := index_facts t
  show (cfg0.win 4).cut (grid0.coords t) ((dats m 0 c).after 4 t) = _
  rw [after0_4]
  funext j
  have hj0 : (j 0).val < 1024 := (j 0).isLt
  have hj1 : (j 1).val < 1024 := (j 1).isLt
  have hx : (cfg0.win 4).xinj (grid0.coords t) j = ix2 (⟨(j 0).val, hj0⟩ : Fin 1024) (⟨(j 1).val, hj1⟩ : Fin 1024) :=
    funext fun a => by
      match a with
      | ⟨0, _⟩ => rfl
      | ⟨1, _⟩ => rfl
  have hemb : ((cfg0.win 4).blk t).view.emb j
      = ix2 (blkRow t.val (⟨(j 0).val, hj0⟩ : Fin 1024)) (blkCol t.val (⟨(j 1).val, hj1⟩ : Fin 1024)) :=
    funext fun a => Fin.ext (by
      match a with
      | ⟨0, _⟩ => show win0_4.index t (0 : Fin 2) * 1024 + 1 * (j 0).val = t.val / 32 % 8 * 1024 + (j 0).val; rw [e0]; omega
      | ⟨1, _⟩ => show win0_4.index t (1 : Fin 2) * 1024 + 1 * (j 1).val = t.val / 8 % 4 * 1024 + (j 1).val; rw [e1]; omega)
  show (outsAt0 m c t.val t.isLt).1 ((cfg0.win 4).xinj (grid0.coords t) j) = regionOut m c (((cfg0.win 4).blk t).view.emb j)
  rw [hx, hemb]
  exact block_entry m c t h7 _ _

/-- An index of the array is in a point's block when each coordinate is in the block's range on its axis. -/
theorem mem_blk (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v24).slice (win0_4.rect t)).set ↔ _
  rw [View.set_slice_whole, Rect.mem_set_unit]
  exact Iff.rfl

/-- Every index of the array is in the block of a point that writes back: block row `r / 1024` and block column
    `n / 1024` at the last step. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  have hlt : (i 0).val / 1024 * 32 + (i 1).val / 1024 * 8 + 7 < cfg0.N := by rw [hN]; omega
  obtain ⟨-, -, -, -, -, -, -, -, e0, e1⟩ := index_facts ⟨(i 0).val / 1024 * 32 + (i 1).val / 1024 * 8 + 7, hlt⟩
  refine ⟨⟨(i 0).val / 1024 * 32 + (i 1).val / 1024 * 8 + 7, hlt⟩, (flush0_4 _).mpr (by show ((i 0).val / 1024 * 32 + (i 1).val / 1024 * 8 + 7) % 8 = 7; omega), ?_⟩
  rw [mem_blk]
  intro a
  match a with
  | ⟨0, _⟩ =>
    show win0_4.index ⟨(i 0).val / 1024 * 32 + (i 1).val / 1024 * 8 + 7, hlt⟩ (0 : Fin 2) * 1024 ≤ (i 0).val
      ∧ (i 0).val < win0_4.index ⟨(i 0).val / 1024 * 32 + (i 1).val / 1024 * 8 + 7, hlt⟩ (0 : Fin 2) * 1024 + 1024
    rw [e0]
    show ((i 0).val / 1024 * 32 + (i 1).val / 1024 * 8 + 7) / 32 % 8 * 1024 ≤ (i 0).val
      ∧ (i 0).val < ((i 0).val / 1024 * 32 + (i 1).val / 1024 * 8 + 7) / 32 % 8 * 1024 + 1024
    omega
  | ⟨1, _⟩ =>
    show win0_4.index ⟨(i 0).val / 1024 * 32 + (i 1).val / 1024 * 8 + 7, hlt⟩ (1 : Fin 2) * 1024 ≤ (i 1).val
      ∧ (i 1).val < win0_4.index ⟨(i 0).val / 1024 * 32 + (i 1).val / 1024 * 8 + 7, hlt⟩ (1 : Fin 2) * 1024 + 1024
    rw [e1]
    show ((i 0).val / 1024 * 32 + (i 1).val / 1024 * 8 + 7) / 8 % 4 * 1024 ≤ (i 1).val
      ∧ (i 1).val < ((i 0).val / 1024 * 32 + (i 1).val / 1024 * 8 + 7) / 8 % 4 * 1024 + 1024
    omega

/-- After the run the output array is the result array. -/
theorem final (c : Dev nD) : (dats m 0 c).arrAt 4 cfg0.N = regionOut m c :=
  (dats m 0 c).arrAt_eq_of_cover 4 (regionOut m c) (flushed_eq m c) cover

end Cert.KernelIdeal.Blocks

end
-- ==== Proof.Entry.lean ====
/-
  The four arrays the matrix-product region finds, entry by entry.

  Before the region the program computes two numbers from the whole activation array `x` — the scale
  `s = (max x - min x) / 255` and the zero point `z = min 127 (max (-128) (round (-128 - min x / s)))` — and from them:
  the quantised activations as a matrix [8192, 4096], row `p · 2048 + r` being row `(p, r)` of `x`, entry
  `round (x · (1 / s) + z) - z`; the weights transposed; the row of channel scales each times `s`; the row of biases.
-/
import proofs.«117008_j56882546868863_2_alg».proof.Proof.Gen.KernelIdeal.Frame
import proofs.«117008_j56882546868863_2_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.QLinear

/-- The scale: the spread of the activations over 255. -/
def scale (x : FVec Ideal S4x2048x4096 .f32) : FVec Ideal S_ .f32 :=
  Host.divf
    (subf (Host.reduce FloatOps.maximumf x (constant (F := Ideal) S_ .f32 0xFF800000#32) reducesTo_S4x2048x4096_S_d0_1_2 h_S_)
      (Host.reduce FloatOps.minimumf x (constant (F := Ideal) S_ .f32 0x7F800000#32) reducesTo_S4x2048x4096_S_d0_1_2 h_S_))
    (constant (F := Ideal) S_ .f32 0x437F0000#32)

/-- The zero point: `-128 - min x / s` rounded and clamped to [-128, 127]. -/
def zeroPt (x : FVec Ideal S4x2048x4096 .f32) : FVec Ideal S_ .f32 :=
  minimumf (id (constant (F := Ideal) S_ .f32 0x42FE0000#32))
    (maximumf (id (constant (F := Ideal) S_ .f32 0xC3000000#32))
      (Host.roundeven (subf (constant (F := Ideal) S_ .f32 0xC3000000#32)
        (Host.divf (Host.reduce FloatOps.minimumf x (constant (F := Ideal) S_ .f32 0x7F800000#32) reducesTo_S4x2048x4096_S_d0_1_2 h_S_)
          (scale x)))))

/-- Rounding to the nearest integer, ties to even, of one entry. -/
abbrev rnd : EReal → EReal := FloatOps.hostUnary (F := Ideal) (φ := .f32) .roundeven

/-- Row `(p, r)` of the activations is row `p · 2048 + r` of the matrix. -/
abbrev row (p : Fin 4) (r : Fin 2048) : Fin 8192 := ⟨p.val * 2048 + r.val, by omega⟩

/-- The quantised activations as a matrix. -/
def quantised (x : FVec Ideal S4x2048x4096 .f32) : FVec Ideal S8192x4096 .bf16 :=
  truncf .bf16 (subf (Host.roundeven (addf
    (mulf (shapeCast S8192x4096 x shapeCasts_S4x2048x4096_S8192x4096)
      (broadcastInDim S8192x4096 ![] bcast_S_S8192x4096 (Host.divf (constant (F := Ideal) S_ .f32 0x3F800000#32) (scale x))))
    (broadcastInDim S8192x4096 ![] bcast_S_S8192x4096 (zeroPt x))))
    (broadcastInDim S8192x4096 ![] bcast_S_S8192x4096 (zeroPt x))) bitsLt_bf16_f32

/-- The weights transposed. -/
def weightsT (w : FVec Ideal S4096x4096 .f32) : FVec Ideal S4096x4096 .bf16 :=
  transpose S4096x4096 [1, 0] (truncf .bf16 w bitsLt_bf16_f32) transposes_S4096x4096_S4096x4096_1_0

/-- The row of channel scales, each times the scale. -/
def scales (cs : FVec Ideal S1x1x4096 .f32) (x : FVec Ideal S4x2048x4096 .f32) : FVec Ideal S1x4096 .f32 :=
  mulf (shapeCast S1x4096 cs shapeCasts_S1x1x4096_S1x4096) (broadcastInDim S1x4096 ![] bcast_S_S1x4096 (scale x))

/-- The biases as a row. -/
def biases (b : FVec Ideal S4096 .f32) : FVec Ideal S1x4096 .f32 := shapeCast S1x4096 b shapeCasts_S4096_S1x4096

/-- A scalar broadcast reads the scalar everywhere. -/
theorem bcast_scalar {t : Shape} (h : S_.BroadcastsInDim t (![] : Fin 0 → Fin t.rank)) (y : S_.Idx → EReal) (j : t.Idx) :
    broadcastInDim t ![] h y j = y ix0 :=
  broadcastInDim_apply _ h y j ix0 (fun a => a.elim0)

/-- Entry `(p · 2048 + r, d)` of the quantised activations is entry `(p, r, d)` of the activations, quantised with the
    reciprocal of the scale. -/
theorem quantised_apply (x : FVec Ideal S4x2048x4096 .f32) (p : Fin 4) (r : Fin 2048) (d : Fin 4096) :
    quantised x (ix2 (row p r) d) = quantMul rnd (scale x ix0) (zeroPt x ix0) (x (ix3 p r d)) := by
  have e1 : shapeCast S8192x4096 x shapeCasts_S4x2048x4096_S8192x4096 (ix2 (row p r) d) = x (ix3 p r d) :=
    shapeCast_apply (s := S4x2048x4096) (t := S8192x4096) x shapeCasts_S4x2048x4096_S8192x4096 (ix2 (row p r) d) (ix3 p r d) (by
      rw [Shape.rowMajor_val_three, Shape.rowMajor_val_two]; rfl)
  show rnd (shapeCast S8192x4096 x shapeCasts_S4x2048x4096_S8192x4096 (ix2 (row p r) d)
        * broadcastInDim S8192x4096 ![] bcast_S_S8192x4096
            (Host.divf (constant (F := Ideal) S_ .f32 0x3F800000#32) (scale x)) (ix2 (row p r) d)
        + broadcastInDim S8192x4096 ![] bcast_S_S8192x4096 (zeroPt x) (ix2 (row p r) d))
      - broadcastInDim S8192x4096 ![] bcast_S_S8192x4096 (zeroPt x) (ix2 (row p r) d) = _
  rw [e1, bcast_scalar, bcast_scalar]
  show rnd (x (ix3 p r d) * Ideal.div (Ideal.ofBits .f32 0x3F800000#32) (scale x ix0) + zeroPt x ix0) - zeroPt x ix0 = _
  rw [one_f32]
  rfl

/-- Entry `(d, o)` of the transposed weights is entry `(o, d)` of the weights. -/
theorem weightsT_apply (w : FVec Ideal S4096x4096 .f32) (d o : Fin 4096) : weightsT w (ix2 d o) = w (ix2 o d) :=
  transpose_ix2_apply (truncf .bf16 w bitsLt_bf16_f32) transposes_S4096x4096_S4096x4096_1_0 d o

/-- Entry `o` of the scaled channel scales is channel `o`'s scale times the scale. -/
theorem scales_apply (cs : FVec Ideal S1x1x4096 .f32) (x : FVec Ideal S4x2048x4096 .f32) (u : Fin 1) (o : Fin 4096) :
    scales cs x (ix2 u o) = cs (ix3 (0 : Fin 1) (0 : Fin 1) o) * scale x ix0 := by
  have e1 : shapeCast S1x4096 cs shapeCasts_S1x1x4096_S1x4096 (ix2 u o) = cs (ix3 (0 : Fin 1) (0 : Fin 1) o) :=
    shapeCast_apply (s := S1x1x4096) (t := S1x4096) cs shapeCasts_S1x1x4096_S1x4096 (ix2 u o) (ix3 (0 : Fin 1) (0 : Fin 1) o) (by
      have hu : u.val = 0 := by omega
      rw [Shape.rowMajor_val_three, Shape.rowMajor_val_two]
      show (0 * 1 + 0) * 4096 + o.val = u.val * 4096 + o.val
      rw [hu])
  show shapeCast S1x4096 cs shapeCasts_S1x1x4096_S1x4096 (ix2 u o)
      * broadcastInDim S1x4096 ![] bcast_S_S1x4096 (scale x) (ix2 u o) = _
  rw [e1, bcast_scalar]

/-- Entry `o` of the row of biases is bias `o`. -/
theorem biases_apply (b : FVec Ideal S4096 .f32) (u : Fin 1) (o : Fin 4096) : biases b (ix2 u o) = b (ix1 o) :=
  shapeCast_a_1a_apply b shapeCasts_S4096_S1x4096 u o

variable (m : (ℓ : Loc nD τ sig) → Buf (Elt Ideal) ℓ)

/-- The region finds the quantised activations of the launch's activations, -/
theorem quantised_eq (c : Dev nD) : V m c main_v17 = quantised (m ((c : Thread nD τ).loc main_arg0)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

/-- the launch's weights transposed, -/
theorem weightsT_eq (c : Dev nD) : V m c main_v19 = weightsT (m ((c : Thread nD τ).loc main_arg1)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

/-- the launch's channel scales times the scale, -/
theorem scales_eq (c : Dev nD) :
    V m c main_v22 = scales (m ((c : Thread nD τ).loc main_arg2)) (m ((c : Thread nD τ).loc main_arg0)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

/-- and the launch's biases. -/
theorem biases_eq (c : Dev nD) : V m c main_v23 = biases (m ((c : Thread nD τ).loc main_arg3)) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Entry

end
-- ==== Proof.KernelValue.lean ====
/-
  The kernel's result, named.

  After the region the program reshapes the [8192, 4096] result array to [4, 2048, 4096]: entry `(p, r, o)` is entry
  `(p · 2048 + r, o)` of the region's result. With the four arrays the region finds read entry by entry, that is
  `(∑ d, (round (x p r d · (1 / s) + z) - z) · w o d) · (c o · s) + b o` of the launch's activations `x`, weights `w`,
  channel scales `c` and biases `b`.
-/
import proofs.«117008_j56882546868863_2_alg».proof.Proof.Blocks
import proofs.«117008_j56882546868863_2_alg».proof.Proof.Entry
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.QLinear Cert.KernelIdeal.Entry Cert.KernelIdeal.Blocks

/-- Entry `(p · 2048 + r, o)` of the region's result, of the four arrays as the program computes them from its
    arguments, is entry `(p, r, o)` of the multiplying form of the result array. -/
theorem product_entry (x : FVec Ideal S4x2048x4096 .f32) (w : FVec Ideal S4096x4096 .f32) (cs : FVec Ideal S1x1x4096 .f32)
    (b : FVec Ideal S4096 .f32) (p : Fin 4) (r : Fin 2048) (o : Fin 4096) :
    product (quantised x) (weightsT w) (scales cs x) (biases b) (ix2 (row p r) o)
      = outMul rnd (scale x ix0) (zeroPt x ix0) x w cs b (ix3 p r o) := by
  show (∑ d : Fin 4096, quantised x (ix2 (row p r) d) * weightsT w (ix2 d o)) * scales cs x (ix2 (0 : Fin 1) o)
      + biases b (ix2 (0 : Fin 1) o) = _
  simp only [quantised_apply, weightsT_apply, scales_apply, biases_apply]
  rfl

variable (m : (ℓ : Loc nD τ sig) → Buf (Elt Ideal) ℓ) (ρ : Dev nD → PrngReg)

/-- The kernel's result array, of the launch's four arguments. -/
abbrev kernelOut (c : Dev nD) : S4x2048x4096.Idx → EReal :=
  outMul rnd (scale (m ((c : Thread nD τ).loc main_arg0)) ix0) (zeroPt (m ((c : Thread nD τ).loc main_arg0)) ix0)
    (m ((c : Thread nD τ).loc main_arg0)) (m ((c : Thread nD τ).loc main_arg1)) (m ((c : Thread nD τ).loc main_arg2)) (m ((c : Thread nD τ).loc main_arg3))

/-- The region's result is the product form of the four arrays computed from the launch's arguments. -/
theorem regionOut_eq (c : Dev nD) :
    regionOut m c = product (quantised (m ((c : Thread nD τ).loc main_arg0))) (weightsT (m ((c : Thread nD τ).loc main_arg1)))
      (scales (m ((c : Thread nD τ).loc main_arg2)) (m ((c : Thread nD τ).loc main_arg0))) (biases (m ((c : Thread nD τ).loc main_arg3))) := by
  show product (V m c main_v17) (V m c main_v19) (V m c main_v22) (V m c main_v23) = _
  rw [quantised_eq m c, weightsT_eq m c, scales_eq m c, biases_eq m c]

/-- The reshape after the region leaves the kernel's result array. -/
theorem tail_eq (c : Dev nD) :
    Pipeline.afterTail₀ cfgs (dats m) 0 (V0 m) [hostOps1] c main_v25 = kernelOut m c := by
  unfold Pipeline.afterTail₀
  show StableHlo.after hostOps1 _ (Proc.devRef .tc main_v25) = _
  after_results
  have e : Pipeline.withArrays spec0 c (V0 m c) (fun w => (dats m 0 c).arrAt w cfg0.N) (Proc.devRef .tc main_v24)
      = (dats m 0 c).arrAt 4 cfg0.N :=
    Pipeline.withArrays_arr spec0 launch0.win.arr_inj c (V0 m c) (fun w => (dats m 0 c).arrAt w cfg0.N) 4
  rw [e, final m c, regionOut_eq m c]
  funext i
  obtain ⟨p, r, o, rfl⟩ : ∃ p r o, i = ix3 p r o := ⟨i 0, i 1, i 2, eq_ix3 i⟩
  refine (shapeCast_apply (s := S8192x4096) (t := S4x2048x4096) _ shapeCasts_S8192x4096_S4x2048x4096 (ix3 p r o) (ix2 (row p r) o) (by
    rw [Shape.rowMajor_val_three, Shape.rowMajor_val_two]; rfl)).trans ?_
  exact product_entry _ _ _ _ p r o

/-- The run, read: the result buffer ends at the kernel's result array, the arguments unchanged. -/
theorem run : θ_run defs (onTc (τ := τ) (main (F := Ideal))) ⟨m, fun _ => 0, ρ⟩ fun r => ∀ c : Dev nD,
      r.2.mem ((c.tc : Thread nD τ).loc main_v25) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/-
  A quantised linear layer: a tiled matrix-product kernel against its plain reference, on the extended reals.

  Both programs compute, from activations `x` [4, 2048, 4096], integer-valued weights `w` [4096, 4096], channel scales
  `c` and biases `b`, a scale `s = (max x - min x) / 255` and a zero point `z` (a rounding of `-128 - min x / s` clamped
  to [-128, 127]), the quantised activations `round (x / s + z) - z`, their contraction with the weights, and the
  dequantised result.

  The reference divides by `s`, contracts all 4096 positions at once, and multiplies by `s` and then by `c`. The kernel
  multiplies by `1 / s`, folds `s` into the channel scales before the product, and contracts in eight steps of 512 into
  an accumulator carried across the grid, block `(i, j)` of the [8192, 4096] result being written after the eighth step.
  Regrouping a sum and re-associating a product change nothing on the extended reals, and neither does a change of
  float format. `x · (1 / s)` is `x / s` whenever `s ≠ 0`; when `s = 0` both results are a product with zero plus the
  bias. So the two results are equal for every input, and the finiteness of the inputs is not used.

  The kernel's frame and its idealization's frame are the generated ones; the reference's frame is its generated run
  with the result dropped; the idealization rewrote nothing, so there is nothing to preserve.
-/
import proofs.«117008_j56882546868863_2_alg».proof.Defs
import proofs.«117008_j56882546868863_2_alg».proof.Proof.Gen.Kernel
import proofs.«117008_j56882546868863_2_alg».proof.Proof.Gen.Kernel.Skeleton
import proofs.«117008_j56882546868863_2_alg».proof.Proof.Gen.Kernel.Launch
import proofs.«117008_j56882546868863_2_alg».proof.Proof.Gen.Kernel.Points
import proofs.«117008_j56882546868863_2_alg».proof.Proof.Gen.Kernel.Frame
import proofs.«117008_j56882546868863_2_alg».proof.Proof.Gen.KernelIdeal
import proofs.«117008_j56882546868863_2_alg».proof.Proof.Gen.KernelIdeal.Skeleton
import proofs.«117008_j56882546868863_2_alg».proof.Proof.Gen.KernelIdeal.Launch
import proofs.«117008_j56882546868863_2_alg».proof.Proof.Gen.KernelIdeal.Points
import proofs.«117008_j56882546868863_2_alg».proof.Proof.Gen.KernelIdeal.Frame
import proofs.«117008_j56882546868863_2_alg».proof.Proof.Gen.ReferenceIdeal
import proofs.«117008_j56882546868863_2_alg».proof.Proof.Gen.ReferenceIdeal.Run
import proofs.«117008_j56882546868863_2_alg».proof.Proof.Gen.ReferenceIdeal.Read
import proofs.«117008_j56882546868863_2_alg».proof.Proof.Gen.Pre_finite_inputs
import proofs.«117008_j56882546868863_2_alg».proof.Proof.RefValue
import proofs.«117008_j56882546868863_2_alg».proof.Proof.KernelValue
import Idealize.ShloMosaic.Adequacy
import Idealize.ShloMosaic.Init

noncomputable section

namespace Cert.Proof

open Idealize.ShloMosaic Idealize.SL.Sem Idealize.ShloMosaic.ValueIdx

/-- The two programs compute the scale by the same operations, -/
theorem scale_eq (x : FVec Ideal Cert.KernelIdeal.S4x2048x4096 .f32) :
    Cert.KernelIdeal.Entry.scale x = Cert.ReferenceIdeal.Read.val_main_v3 (F := Ideal) x := rfl

/-- and the zero point. -/
theorem zeroPt_eq (x : FVec Ideal Cert.KernelIdeal.S4x2048x4096 .f32) :
    Cert.KernelIdeal.Entry.zeroPt x = Cert.ReferenceIdeal.Read.val_main_v7 (F := Ideal) x := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal values the kernel's result array is the multiplying form and the reference's the dividing form of
    one array of arguments that agree. -/
theorem algebraic : Cert.algebraic_KernelIdeal_ReferenceIdeal := by
  intro m ρ m' ρ' _ hagree
  refine ⟨fun c => Cert.KernelIdeal.KValue.kernelOut m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_is_outDiv,
    (hagree c).1, (hagree c).2.1, (hagree c).2.2.1, (hagree c).2.2.2]
  show _ = Cert.QLinear.outMul _ _ _ _ _ _ _
  rw [Cert.QLinear.outMul_eq_outDiv, scale_eq, zeroPt_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
